-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32 : Shape := ⟨1, ![32]⟩
abbrev S8x1024x1024 : Shape := ⟨3, ![8, 1024, 1024]⟩
abbrev S8x1024 : Shape := ⟨2, ![8, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg1 : IVec S32 32) (main_v13 : IVec S_ 1) (main_v15 : IVec S32 1) (main_c_5 : IVec S_ 32) : IVec S_ 1 :=
  let main_v16 : IVec S32 32 := broadcastInDim S32 ![] bcast_S_S32 main_c_5
  let main_v17 : IVec S32 1 := cmpi .slt main_arg1 main_v16
  let main_v18 : IVec S32 1 := andi main_v15 main_v17
  let main_c_6 : IVec S_ 1 := constantI S_ 1 1#1
  let main_v19 : IVec S_ 1 := (fun x v => Host.reduce IntOp.andi x v reducesTo_S32_S_d0 h_S_) main_v18 main_c_6
  let main_v20 : IVec S_ 1 := andi main_v13 main_v19
  main_v20

def fn {F : FTy → Type} [FloatOps F] (main_arg0 : FVec F S32x512x1024 .f32) (main_arg1 : IVec S32 32) (main_arg2 : FVec F S8x1024x1024 .f32) (main_arg3 : FVec F S8x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S8x1024x1024 .f32 := Host.absf main_arg2
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_c_4 : IVec S_ 32 := constantI S_ 32 0#32
  let main_v14 : IVec S32 32 := broadcastInDim S32 ![] bcast_S_S32 main_c_4
  let main_v15 : IVec S32 1 := cmpi .sge main_arg1 main_v14
  let main_c_5 : IVec S_ 32 := constantI S_ 32 8#32
  fn_part1 (F := F) main_arg1 main_v13 main_v15 main_c_5
-- ==== Kernel.lean ====
abbrev S32x512x1024 : Shape := ⟨3, ![32, 512, 1024]⟩
abbrev S32 : Shape := ⟨1, ![32]⟩
abbrev S8x1024x1024 : Shape := ⟨3, ![8, 1024, 1024]⟩
abbrev S8x1024 : Shape := ⟨2, ![8, 1024]⟩
abbrev S_ : Shape := ⟨0, ![]⟩
abbrev S32x1 : Shape := ⟨2, ![32, 1]⟩
abbrev S8x1x1024 : Shape := ⟨3, ![8, 1, 1024]⟩
abbrev S1x512x1024 : Shape := ⟨3, ![1, 512, 1024]⟩
abbrev S1 : Shape := ⟨1, ![1]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 16
  | .vmem => 8
  | .smem => 2
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S8x1024x1024, .f32⟩
  | .hbm, ⟨3, _⟩ => ⟨S8x1024, .f32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i1⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S32x1, .i32⟩
  | .hbm, ⟨14, _⟩ => ⟨S8x1x1024, .f32⟩
  | .hbm, ⟨15, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .smem, ⟨0, _⟩ => ⟨S32, .i32⟩
  | .local _ .smem, ⟨1, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v8 : Ref sig .tc := ⟨.hbm, 14, rfl⟩
abbrev main_v9 : Ref sig .tc := ⟨.hbm, 15, rfl⟩
abbrev main_v0 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_v0.idx, main_v7.idx], fun | 0 => main_v0.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  shapeCasts_S8x1024_S8x1x1024 : S8x1024.ShapeCasts S8x1x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  gather_S32_S32x1_S32_n_0_n_n_0_1_1_wf : GatherDims.WF S32 S32x1 S32 [] [0] [] [0] [] 1 ![1]
  dot_S512x1024_S1024x1024_S512x1024_1_1_0_0_n_n_wf : DotDims.WF S512x1024 S1024x1024 S512x1024 [1] [1] [0] [0] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_v8) S1x1x1024.size reads0_2 false false 2 stage0_2 sem0_2 nbuf0_2 hstage0_2

abbrev spec0_3 : Pipeline.WinSpec sig grid0.rank :=
  Pipeline.WinSpec.ofSpec (Memref.whole main_v9) S1x512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x1024.size a ≤ S32x512x1024.size a), EltTy.bits .f32 = 32 ∨ (Rect.block (s := S32x512x1024) S1x512x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x1024.size a ≤ S8x1024x1024.size a), EltTy.bits .f32 = 32 ∨ (Rect.block (s := S8x1024x1024) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S8x1x1024.size a), EltTy.bits .f32 = 32 ∨ (Rect.block (s := S8x1x1024) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x512x1024.size a ≤ S32x512x1024.size a), EltTy.bits .f32 = 32 ∨ (Rect.block (s := S32x512x1024) S1x512x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32 : Shape := ⟨1, ![32]⟩
abbrev S8x1024x1024 : Shape := ⟨3, ![8, 1024, 1024]⟩
abbrev S8x1024 : Shape := ⟨2, ![8, 1024]⟩
abbrev S_ : Shape := ⟨0, ![]⟩
abbrev S32x1 : Shape := ⟨2, ![32, 1]⟩
abbrev S32x1024x1024 : Shape := ⟨3, ![32, 1024, 1024]⟩
abbrev S32x1024 : Shape := ⟨2, ![32, 1024]⟩
abbrev S32x1x1024 : Shape := ⟨3, ![32, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S8x1024x1024, .f32⟩
  | .hbm, ⟨3, _⟩ => ⟨S8x1024, .f32⟩
  | .hbm, ⟨4, _⟩ => ⟨S_, .i32⟩
  | .hbm, ⟨5, _⟩ => ⟨S32, .i32⟩
  | .hbm, ⟨6, _⟩ => ⟨S32, .i1⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S32x1, .i32⟩
  | .hbm, ⟨12, _⟩ => ⟨S32x1024x1024, .f32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S32x1024, .f32⟩
  | .hbm, ⟨22, _⟩ => ⟨S32x512x1024, .f32⟩
  | .hbm, ⟨23, _⟩ => ⟨S32x1x1024, .f32⟩
  | .hbm, ⟨24, _⟩ => ⟨S32x512x1024, .f32⟩
  | .hbm, ⟨25, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  gather_S8x1024x1024_S32x1_S32x1024x1024_12_0_n_n_0_1_110241024_wf : GatherDims.WF S8x1024x1024 S32x1 S32x1024x1024 [1, 2] [0] [] [0] [] 1 ![1, 1024, 1024]
  gather_S8x1024_S32x1_S32x1024_1_0_n_n_0_1_11024_wf : GatherDims.WF S8x1024 S32x1 S32x1024 [1] [0] [] [0] [] 1 ![1, 1024]
  dot_S32x512x1024_S32x1024x1024_S32x512x1024_2_2_1_1_0_0_wf : DotDims.WF S32x512x1024 S32x1024x1024 S32x512x1024 [2] [2] [1] [1] [0] [0]

variable [Facts₀]

def gather_S8x1024x1024_S32x1_S32x1024x1024_12_0_n_n_0_1_110241024 : GatherDims S8x1024x1024 S32x1 S32x1024x1024 where
  offsetDims := [1, 2]
  collapsedSliceDims := [0]
  operandBatchingDims := []
  startIndicesBatchingDims := []
  startIndexMap := [0]
  indexVectorDim := 1
  sliceSizes := ![1, 1024, 1024]
  wf := gather_S8x1024x1024_S32x1_S32x1024x1024_12_0_n_n_0_1_110241024_wf
def gather_S8x1024_S32x1_S32x1024_1_0_n_n_0_1_11024 : GatherDims S8x1024 S32x1 S32x1024 where
  offsetDims := [1]
  collapsedSliceDims := [0]
  operandBatchingDims := []
  startIndicesBatchingDims := []
  startIndexMap := [0]
  indexVectorDim := 1
  sliceSizes := ![1, 1024]
  wf := gather_S8x1024_S32x1_S32x1024_1_0_n_n_0_1_11024_wf
def dot_S32x512x1024_S32x1024x1024_S32x512x1024_2_2_1_1_0_0 : DotDims S32x512x1024 S32x1024x1024 S32x512x1024 where
  lhsContracting := [2]
  rhsContracting := [2]
  lhsNonContracting := [1]
  rhsNonContracting := [1]
  lhsBatch := [0]
  rhsBatch := [0]
  wf := dot_S32x512x1024_S32x1024x1024_S32x512x1024_2_2_1_1_0_0_wf

class Facts : Prop extends Facts₀ where

variable [Facts]
-- ==== Proof.Spec.lean ====
/-
  The function both programs compute.  For a batch entry b, a row r and an output column o,

      out[b, r, o] = (∑ h, x[b, r, h] * weight[s b, o, h]) + bias[s b, o],

  where s b is the subject of batch entry b.  The subject word is read as a natural number; under the
  precondition it is below 8, and `row` reduces it modulo 8 only so that the definition is total.
-/
import Idealize.ShloMosaic.PureOps.Ideal
import Idealize.ShloMosaic.Lib.ValueIdx

noncomputable section

namespace Cert.Spec

open Idealize.ShloMosaic Idealize.ShloMosaic.ValueIdx

/-- The activations, [32, 512, 1024]; also the shape of the result. -/
abbrev SX : Shape := ⟨3, ![32, 512, 1024]⟩
/-- The subject words, [32]. -/
abbrev SI : Shape := ⟨1, ![32]⟩
/-- The weight table, [8, 1024, 1024]. -/
abbrev SW : Shape := ⟨3, ![8, 1024, 1024]⟩
/-- The bias table, [8, 1024]. -/
abbrev SB : Shape := ⟨2, ![8, 1024]⟩

/-- Every subject word names a row of the two tables. -/
def InRange (sid : IVec SI 32) : Prop := ∀ b : Fin 32, (sid (ix1 b)).toNat < 8

/-- The table row of batch entry b. -/
def row (sid : IVec SI 32) (b : Fin 32) : Fin 8 := ⟨(sid (ix1 b)).toNat % 8, Nat.mod_lt _ (by decide)⟩

theorem row_val {sid : IVec SI 32} (h : InRange sid) (b : Fin 32) : (row sid b).val = (sid (ix1 b)).toNat :=
  Nat.mod_eq_of_lt (h b)

/-- The result, element by element: the product of row (b, r) of x with row (s b, o) of the weights, plus the bias. -/
def G (x : SX.Idx → EReal) (sid : IVec SI 32) (w : SW.Idx → EReal) (bias : SB.Idx → EReal) : SX.Idx → EReal :=
  fun i => (∑ h : Fin 1024, x (ix3 (i 0) (i 1) h) * w (ix3 (row sid (i 0)) (i 2) h)) + bias (ix2 (row sid (i 0)) (i 2))

end Cert.Spec

end
-- ==== Proof.LibArgsort.lean ====
/-
  The index table an argsort returns.  A stable sort of a rank-1 array of n keys that carries the table
  0, 1, …, n − 1 along returns, in the carried table, a permutation of the positions: entry k is the word of
  σ k for one bijection σ of Fin n (the position whose key lands at k), whatever the comparator is.
-/
import Idealize.ShloMosaic.Lib.SortFacts
import Idealize.ShloMosaic.Lib.ValueIdx

noncomputable section

namespace Cert.Argsort

open Idealize.ShloMosaic Idealize.ShloMosaic.ValueIdx

variable {n : Nat} {α : Type}

/-- The position whose key the stable sort puts at k: `sortedFrom` of the comparator on the pairs (key, position). -/
def src (cmp : α × BitVec 32 → α × BitVec 32 → BitVec 1) (keys : (⟨1, ![n]⟩ : Shape).Idx → α) (k : Fin n) : Fin n :=
  sortedFrom (fun a b : Fin n => cmp (keys (Shape.Idx.ofFin a), BitVec.ofNat 32 a.val)
    (keys (Shape.Idx.ofFin b), BitVec.ofNat 32 b.val) == 1#1) k

/-- It is a bijection of the positions. -/
theorem src_bijective (cmp : α × BitVec 32 → α × BitVec 32 → BitVec 1) (keys : (⟨1, ![n]⟩ : Shape).Idx → α) :
    Function.Bijective (src cmp keys) :=
  ⟨sortedFrom_injective _, sortedFrom_surjective _⟩

/-- On a rank-1 shape, replacing the one coordinate of any index by k gives the index at k. -/
theorem along_zero (j : (⟨1, ![n]⟩ : Shape).Idx) (h : 0 < (⟨1, ![n]⟩ : Shape).rank) (k : Fin n) :
    j.along ⟨0, h⟩ k = Shape.Idx.ofFin k := Shape.Idx.along_rank1 j k

/-- THE ARGSORT'S TABLE at position k: the word of `src k`. -/
theorem argsort_apply (cmp : α × BitVec 32 → α × BitVec 32 → BitVec 1) (keys : (⟨1, ![n]⟩ : Shape).Idx → α)
    (j : (⟨1, ![n]⟩ : Shape).Idx) :
    (Host.sort2 ⟨1, ![n]⟩ 0 cmp keys (iotaInDim ⟨1, ![n]⟩ 32 0)).2 j = BitVec.ofNat 32 (src cmp keys (j 0)).val := by
  unfold Host.sort2
  rw [dif_pos (show 0 < (⟨1, ![n]⟩ : Shape).rank from Nat.one_pos)]
  show BitVec.ofNat 32 ((j.along ⟨0, Nat.one_pos⟩ (sortedFrom (fun k k' : Fin n =>
      cmp (keys (j.along ⟨0, Nat.one_pos⟩ k), BitVec.ofNat 32 ((j.along ⟨0, Nat.one_pos⟩ k) 0).val)
        (keys (j.along ⟨0, Nat.one_pos⟩ k'), BitVec.ofNat 32 ((j.along ⟨0, Nat.one_pos⟩ k') 0).val) == 1#1) (j 0))) 0).val = _
  simp only [along_zero, Shape.Idx.ofFin_zero]
  rfl

end Cert.Argsort

end
-- ==== Proof.LibGatherPick.lean ====
/-
  `x[idx]` of a flat array x : [N] at an index column idx : [R, 1], read at a position: the gather with no offset
  axes, the operand's one axis collapsed, the index vector on the column's second axis.  Result element r is x at
  the start index idx[r, 0], read as a signed integer and clamped into [0, N − 1].
-/
import Idealize.ShloMosaic.PureOps
import Idealize.ShloMosaic.Lib.ValueIdx

noncomputable section

namespace Cert.GatherPick

open Idealize.ShloMosaic Idealize.ShloMosaic.ValueIdx

variable {α : Type}

/-- Those dimension numbers for an operand [N], start indices [R, 1] and result [R]. -/
abbrev pickDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT r: the operand at the start index idx[r, 0], read signed and clamped into [0, N − 1]. -/
theorem gather_pick_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (pickDims N R wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (pickDims N R wf).start y idx 0 + (pickDims N R wf).batchCoord y 0 + (pickDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]
  have hsi : (pickDims N R wf).siIdx y ⟨List.idxOf (0 : Fin 1) (pickDims N R wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

end Cert.GatherPick

end
-- ==== Proof.KernelTables.lean ====
/-
  The two tables the index maps read, as the region finds them.  Table 0 is the argsort of the subject words: entry b
  is the word of σ b, the batch entry whose subject comes b-th in sorted order, and σ is a bijection of the 32 batch
  entries.  Table 1 is the subject words gathered through table 0: entry b is the subject of batch entry σ b.  So, when
  every subject is below 8, every block the index maps name lies inside its array: the activations' and the result's at
  batch entry σ b < 32, the weights' and the bias's at row s (σ b) < 8.
-/
import proofs.«140168_j77360950935845_2_alg».proof.Proof.Gen.Kernel.Frame
import proofs.«140168_j77360950935845_2_alg».proof.Proof.Spec
import proofs.«140168_j77360950935845_2_alg».proof.Proof.LibArgsort
import proofs.«140168_j77360950935845_2_alg».proof.Proof.LibGatherPick
import Idealize.ShloMosaic.Lib.StableHlo.Run
import Idealize.ShloMosaic.Lib.Pipeline.Value

set_option maxRecDepth 16384

noncomputable section

namespace Cert.Kernel.Tables

open Cert.Kernel Cert.Kernel.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The subject words as launched. -/
def sid : IVec S32 32 := m (((0 : Dev nD) : Thread nD τ).loc main_arg1)

/-- The batch entry whose subject comes b-th in sorted order. -/
def σ : Fin 32 → Fin 32 := Cert.Argsort.src comparator_i32_i32_d0 (sid m)

theorem σ_bijective : Function.Bijective (σ m) := Cert.Argsort.src_bijective _ _

/-- The argsort of the subject words. -/
def perm (s : IVec S32 32) : IVec S32 32 := (Host.sort2 S32 0 comparator_i32_i32_d0 s (iotaInDim S32 32 0)).2

theorem perm_apply (b : Fin 32) : perm (sid m) (ix1 b) = BitVec.ofNat 32 (σ m b).val :=
  Cert.Argsort.argsort_apply comparator_i32_i32_d0 (sid m) (ix1 b)

/-- Table 0 is the argsort. -/
theorem tbl0_eq : (tbl m 0 : S32.Idx → BitVec 32) = perm (sid m) := by
  unfold tbl
  show V m 0 main_v0 = _
  dsimp only [V]
  simp only [hostOps0, hostOps0_1, List.flatten_cons, List.flatten_nil, List.append_nil, List.cons_append, List.nil_append]
  after_results
  rfl

/-- Table 1 is the subject words gathered at the argsort's entries (an entry below zero moved up by 32 first). -/
theorem tbl1_eq : (tbl m 1 : S32.Idx → BitVec 32) =
    Host.gather gather_S32_S32x1_S32_n_0_n_n_0_1_1 (sid m)
      (broadcastInDim S32x1 ![0] bcast_S32_S32x1_0
        (select (cmpi .slt (perm (sid m)) (broadcastInDim S32 ![] bcast_S_S32 (constantI S_ 32 0#32)))
          (addi (perm (sid m)) (broadcastInDim S32 ![] bcast_S_S32 (constantI S_ 32 32#32)))
          (perm (sid m)))) := by
  unfold tbl
  show V m 0 main_v7 = _
  dsimp only [V]
  simp only [hostOps0, hostOps0_1, List.flatten_cons, List.flatten_nil, List.append_nil, List.cons_append, List.nil_append]
  after_results
  rfl

/-- The word of a position below 32 is not negative, and reads back as the position. -/
theorem word_facts : ∀ k : Fin 32, IntOp.cmpi .slt (BitVec.ofNat 32 k.val) 0#32 = 0#1
    ∧ (BitVec.ofNat 32 k.val).toInt.toNat = k.val ∧ (BitVec.ofNat 32 k.val).toNat = k.val := by decide

/-- Entry b of table 0: the word of σ b. -/
theorem tbl0_apply (b : Fin 32) : (tbl m 0 : S32.Idx → BitVec 32) (ix1 b) = BitVec.ofNat 32 (σ m b).val := by
  rw [tbl0_eq]; exact perm_apply m b

/-- The column of start indices read at (b, 0): the vector's entry b. -/
theorem column_apply (v : IVec S32 32) (b : Fin 32) :
    broadcastInDim S32x1 ![0] bcast_S32_S32x1_0 v (ix2 b (⟨0, Nat.one_pos⟩ : Fin 1)) = v (ix1 b) :=
  broadcastInDim_apply _ bcast_S32_S32x1_0 v (ix2 b (⟨0, Nat.one_pos⟩ : Fin 1)) (ix1 b) (fun a => match a with
    | ⟨0, _⟩ => by show b.val = if (32 : Nat) = 1 then 0 else b.val; rw [if_neg (by decide)])

/-- The gather of the subject words at a column whose entry b is the word of position k reads the subject of k. -/
theorem gather_sid_apply (s : IVec S32 32) (idx : IVec S32x1 32) (b k : Fin 32)
    (hk : idx (ix2 b (⟨0, Nat.one_pos⟩ : Fin 1)) = BitVec.ofNat 32 k.val) :
    Host.gather gather_S32_S32x1_S32_n_0_n_n_0_1_1 s idx (ix1 b) = s (ix1 k) := by
  refine (Cert.GatherPick.gather_pick_apply (by decide) Facts₀.gather_S32_S32x1_S32_n_0_n_n_0_1_1_wf s idx (ix1 b)).trans ?_
  congr 1
  funext a
  match a with
  | ⟨0, _⟩ =>
    refine Fin.ext ?_
    show min (idx (ix2 b (⟨0, Nat.one_pos⟩ : Fin 1))).toInt.toNat (32 - 1) = k.val
    rw [hk, (word_facts k).2.1]
    have := k.isLt
    omega

/-- Entry b of table 1: the subject of batch entry σ b. -/
theorem tbl1_apply (b : Fin 32) : (tbl m 1 : S32.Idx → BitVec 32) (ix1 b) = sid m (ix1 (σ m b)) := by
  rw [tbl1_eq]
  refine gather_sid_apply (sid m) _ b (σ m b) ?_
  refine (column_apply _ b).trans ?_
  show Scalar.select (IntOp.cmpi .slt (perm (sid m) (ix1 b)) 0#32) _ (perm (sid m) (ix1 b)) = _
  rw [perm_apply, (word_facts (σ m b)).1, select_zero]

end Cert.Kernel.Tables

end
-- ==== Proof.PreDecode.lean ====
/-
  The precondition, read back.  Its last conjunct says that every subject word s satisfies 0 ≤ s and s < 8 as a
  signed integer; a word in that range has its sign bit clear, so read as a natural number it is below 8.
  The statement is for any float instance: the conjunct is about the integer input only.
-/
import proofs.«140168_j77360950935845_2_alg».proof.Pre_finite_inputs
import proofs.«140168_j77360950935845_2_alg».proof.Proof.Spec
import Idealize.ShloMosaic.Lib.ReduceAll
import Idealize.ShloMosaic.Lib.ValueIdx

noncomputable section

namespace Cert.PreDecode

open Idealize.ShloMosaic Idealize.ShloMosaic.ValueIdx

/-- A word that is nonnegative and below 8 as a signed integer is below 8 as a natural number. -/
theorem toNat_lt_eight (w : BitVec 32) (h0 : IntOp.cmpi .sge w 0#32 = 1#1) (h8 : IntOp.cmpi .slt w 8#32 = 1#1) :
    w.toNat < 8 := by
  rw [IntOp.cmpi_sge] at h0
  rw [IntOp.cmpi_slt] at h8
  have z : (0#32 : BitVec 32).toInt = 0 := by decide
  have e : (8#32 : BitVec 32).toInt = 8 := by decide
  rw [z] at h0
  rw [e] at h8
  have hn : w.toInt = (w.toNat : Int) := by
    rcases BitVec.toInt_eq_toNat_cond w with hc
    rw [hc]
    split
    · rfl
    · rename_i hlt
      exfalso
      rw [hc] at h0
      rw [if_neg hlt] at h0
      have := w.isLt
      omega
  rw [hn] at h8
  omega

instance : Subsingleton (⟨0, ![]⟩ : Shape).Idx := ⟨fun a b => funext fun d => d.elim0⟩

variable {F : FTy → Type} [FloatOps F] [Cert.Pre_finite_inputs.Facts]

/-- Under the precondition every subject word names a table row. -/
theorem inRange_of_pre (a0 : FVec F Cert.Pre_finite_inputs.S32x512x1024 .f32) (a1 : IVec Cert.Pre_finite_inputs.S32 32)
    (a2 : FVec F Cert.Pre_finite_inputs.S8x1024x1024 .f32) (a3 : FVec F Cert.Pre_finite_inputs.S8x1024 .f32)
    (h : Cert.Pre_finite_inputs.fn (F := F) a0 a1 a2 a3 = fun _ => 1#1) : Cert.Spec.InRange a1 := by
  intro b
  have e := congrFun h ix0
  unfold Cert.Pre_finite_inputs.fn at e
  dsimp only [Cert.Pre_finite_inputs.fn_part1] at e
  have e2 := (IntOp.andi_eq_one.1 e).2
  have e3 := Host.reduce_andi_all _ _ _ _ _ e2 (ix1 b)
  obtain ⟨h0, h8⟩ := IntOp.andi_eq_one.1 e3
  exact toNat_lt_eight _ h0 h8

end Cert.PreDecode

end
-- ==== Proof.KernelOk.lean ====
/-
  The pipeline's side condition on the tables, from the precondition.  Each index map reads its table at the grid
  coordinate b and returns the block (word, 0, 0).  The word of table 0 is a batch entry below 32 and the word of
  table 1 a subject, below 8 under the precondition; so every block lies inside its array.
-/
import proofs.«140168_j77360950935845_2_alg».proof.Defs
import proofs.«140168_j77360950935845_2_alg».proof.Proof.KernelTables
import proofs.«140168_j77360950935845_2_alg».proof.Proof.PreDecode
import proofs.«140168_j77360950935845_2_alg».proof.Proof.Gen.Pre_finite_inputs

set_option maxRecDepth 16384

noncomputable section

namespace Cert.Kernel.OkOfPre

open Cert.Kernel Cert.Kernel.Gen Cert.Kernel.Tables
open Idealize.ShloMosaic Idealize.ShloMosaic.TcCoe Idealize.SL.Sem
open Idealize.ShloMosaic.ValueIdx

variable {F : FTy → Type} [FloatOps F]

/-- The grid coordinate as a batch position. -/
def pos (i : grid0.Coords) : Fin 32 := ⟨(i 0).val, (i 0).isLt⟩

/-- The word an index map loads from table 0 at grid coordinate b is the table's entry b. -/
theorem at0 (pf : pre0.Contents (Elt F)) (i : grid0.Coords) :
    pf.at 0 (Rect.unit (s := S32) ![(Scalar.indexCast (BitVec.ofNat 32 (i 0).val)).toNat] S1.size (Facts₀.k0_off1_inb i)) Facts₀.numel1_S1
      = (pf 0 : S32.Idx → BitVec 32) (ix1 (pos i)) := by
  show (pf 0 : S32.Idx → BitVec 32) _ = _
  congr 1
  funext a
  match a with
  | ⟨0, _⟩ =>
    refine Fin.ext ?_
    show (Scalar.indexCast (BitVec.ofNat 32 (i 0).val)).toNat + 1 * 0 = (i 0).val
    have hlt : (i 0).val < 32 := (i 0).isLt
    have : (Scalar.indexCast (BitVec.ofNat 32 (i 0).val)).toNat = (i 0).val := by
      show (i 0).val % 2 ^ 32 = (i 0).val
      omega
    omega

/-- The same for table 1. -/
theorem at1 (pf : pre0.Contents (Elt F)) (i : grid0.Coords) :
    pf.at 1 (Rect.unit (s := S32) ![(Scalar.indexCast (BitVec.ofNat 32 (i 0).val)).toNat] S1.size (Facts₀.k0_off1_inb i)) Facts₀.numel1_S1
      = (pf 1 : S32.Idx → BitVec 32) (ix1 (pos i)) := by
  show (pf 1 : S32.Idx → BitVec 32) _ = _
  congr 1
  funext a
  match a with
  | ⟨0, _⟩ =>
    refine Fin.ext ?_
    show (Scalar.indexCast (BitVec.ofNat 32 (i 0).val)).toNat + 1 * 0 = (i 0).val
    have hlt : (i 0).val < 32 := (i 0).isLt
    have : (Scalar.indexCast (BitVec.ofNat 32 (i 0).val)).toNat = (i 0).val := by
      show (i 0).val % 2 ^ 32 = (i 0).val
      omega
    omega

/-- The four index maps in closed form: the block (table word at b, 0, 0). -/
theorem transform0_eq (pf : pre0.Contents (Elt F)) (i : grid0.Coords) :
    cc0_transform_0 Facts₀.k0_off1_inb Facts₀.numel1_S1 pf i = ![((pf 0 : S32.Idx → BitVec 32) (ix1 (pos i))).toNat, 0, 0] := by
  unfold cc0_transform_0; dsimp only; rw [at0]; rfl
theorem transform1_eq (pf : pre0.Contents (Elt F)) (i : grid0.Coords) :
    cc0_transform_1 Facts₀.k0_off1_inb Facts₀.numel1_S1 pf i = ![((pf 1 : S32.Idx → BitVec 32) (ix1 (pos i))).toNat, 0, 0] := by
  unfold cc0_transform_1; dsimp only; rw [at1]; rfl
theorem transform2_eq (pf : pre0.Contents (Elt F)) (i : grid0.Coords) :
    cc0_transform_2 Facts₀.k0_off1_inb Facts₀.numel1_S1 pf i = ![((pf 1 : S32.Idx → BitVec 32) (ix1 (pos i))).toNat, 0, 0] := by
  unfold cc0_transform_2; dsimp only; rw [at1]; rfl
theorem transform3_eq (pf : pre0.Contents (Elt F)) (i : grid0.Coords) :
    cc0_transform_3 Facts₀.k0_off1_inb Facts₀.numel1_S1 pf i = ![((pf 0 : S32.Idx → BitVec 32) (ix1 (pos i))).toNat, 0, 0] := by
  unfold cc0_transform_3; dsimp only; rw [at0]; rfl

variable (m : (ℓ : Loc nD τ sig) → Buf (Elt F) ℓ)

/-- Table 0's entries are batch entries. -/
theorem tbl0_lt (b : Fin 32) : ((tbl m 0 : S32.Idx → BitVec 32) (ix1 b)).toNat < 32 := by
  rw [tbl0_apply, (word_facts _).2.2]; exact (σ m b).isLt

/-- Table 1's entries are subjects: table rows, when the subjects are in range. -/
theorem tbl1_lt (h : Cert.Spec.InRange (sid m)) (b : Fin 32) : ((tbl m 1 : S32.Idx → BitVec 32) (ix1 b)).toNat < 8 := by
  rw [tbl1_apply]; exact h _

/-- Every block the index maps name lies inside its array. -/
theorem ok_of_inRange (h : Cert.Spec.InRange (sid m)) : Ok m := by
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · rw [transform0_eq]
    have := tbl0_lt m (pos i)
    match a with
    | ⟨0, _⟩ => show (((tbl m 0 : S32.Idx → BitVec 32) (ix1 (pos i))).toNat + 1) * 1 ≤ 32; omega
    | ⟨1, _⟩ => show (0 + 1) * 512 ≤ 512; omega
    | ⟨2, _⟩ => show (0 + 1) * 1024 ≤ 1024; omega
  · rw [transform1_eq]
    have := tbl1_lt m h (pos i)
    match a with
    | ⟨0, _⟩ => show (((tbl m 1 : S32.Idx → BitVec 32) (ix1 (pos i))).toNat + 1) * 1 ≤ 8; omega
    | ⟨1, _⟩ => show (0 + 1) * 1024 ≤ 1024; omega
    | ⟨2, _⟩ => show (0 + 1) * 1024 ≤ 1024; omega
  · rw [transform2_eq]
    have := tbl1_lt m h (pos i)
    match a with
    | ⟨0, _⟩ => show (((tbl m 1 : S32.Idx → BitVec 32) (ix1 (pos i))).toNat + 1) * 1 ≤ 8; omega
    | ⟨1, _⟩ => show (0 + 1) * 1 ≤ 1; omega
    | ⟨2, _⟩ => show (0 + 1) * 1024 ≤ 1024; omega
  · rw [transform3_eq]
    have := tbl0_lt m (pos i)
    match a with
    | ⟨0, _⟩ => show (((tbl m 0 : S32.Idx → BitVec 32) (ix1 (pos i))).toNat + 1) * 1 ≤ 32; omega
    | ⟨1, _⟩ => show (0 + 1) * 512 ≤ 512; omega
    | ⟨2, _⟩ => show (0 + 1) * 1024 ≤ 1024; omega

/-- THE SIDE CONDITION FROM THE PRECONDITION. -/
theorem ok_of_pre [Cert.Pre_finite_inputs.Facts] (m : (ℓ : Loc nD τ sig) → Buf (Elt Bits) ℓ) (h : Cert.Pre_Kernel m) : Ok m :=
  ok_of_inRange m (Cert.PreDecode.inRange_of_pre _ _ _ _ (h 0))

end Cert.Kernel.OkOfPre

end
-- ==== Proof.KernelIdealTables.lean ====
/-
  The two tables the index maps read, as the region finds them.  Table 0 is the argsort of the subject words: entry b
  is the word of σ b, the batch entry whose subject comes b-th in sorted order, and σ is a bijection of the 32 batch
  entries.  Table 1 is the subject words gathered through table 0: entry b is the subject of batch entry σ b.  So, when
  every subject is below 8, every block the index maps name lies inside its array: the activations' and the result's at
  batch entry σ b < 32, the weights' and the bias's at row s (σ b) < 8.
-/
import proofs.«140168_j77360950935845_2_alg».proof.Proof.Gen.KernelIdeal.Frame
import proofs.«140168_j77360950935845_2_alg».proof.Proof.Spec
import proofs.«140168_j77360950935845_2_alg».proof.Proof.LibArgsort
import proofs.«140168_j77360950935845_2_alg».proof.Proof.LibGatherPick
import Idealize.ShloMosaic.Lib.StableHlo.Run
import Idealize.ShloMosaic.Lib.Pipeline.Value

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The subject words as launched. -/
def sid : IVec S32 32 := m (((0 : Dev nD) : Thread nD τ).loc main_arg1)

/-- The batch entry whose subject comes b-th in sorted order. -/
def σ : Fin 32 → Fin 32 := Cert.Argsort.src comparator_i32_i32_d0 (sid m)

theorem σ_bijective : Function.Bijective (σ m) := Cert.Argsort.src_bijective _ _

/-- The argsort of the subject words. -/
def perm (s : IVec S32 32) : IVec S32 32 := (Host.sort2 S32 0 comparator_i32_i32_d0 s (iotaInDim S32 32 0)).2

theorem perm_apply (b : Fin 32) : perm (sid m) (ix1 b) = BitVec.ofNat 32 (σ m b).val :=
  Cert.Argsort.argsort_apply comparator_i32_i32_d0 (sid m) (ix1 b)

/-- Table 0 is the argsort. -/
theorem tbl0_eq : (tbl m 0 : S32.Idx → BitVec 32) = perm (sid m) := by
  unfold tbl
  show V m 0 main_v0 = _
  dsimp only [V]
  simp only [hostOps0, hostOps0_1, List.flatten_cons, List.flatten_nil, List.append_nil, List.cons_append, List.nil_append]
  after_results
  rfl

/-- Table 1 is the subject words gathered at the argsort's entries (an entry below zero moved up by 32 first). -/
theorem tbl1_eq : (tbl m 1 : S32.Idx → BitVec 32) =
    Host.gather gather_S32_S32x1_S32_n_0_n_n_0_1_1 (sid m)
      (broadcastInDim S32x1 ![0] bcast_S32_S32x1_0
        (select (cmpi .slt (perm (sid m)) (broadcastInDim S32 ![] bcast_S_S32 (constantI S_ 32 0#32)))
          (addi (perm (sid m)) (broadcastInDim S32 ![] bcast_S_S32 (constantI S_ 32 32#32)))
          (perm (sid m)))) := by
  unfold tbl
  show V m 0 main_v7 = _
  dsimp only [V]
  simp only [hostOps0, hostOps0_1, List.flatten_cons, List.flatten_nil, List.append_nil, List.cons_append, List.nil_append]
  after_results
  rfl

/-- The word of a position below 32 is not negative, and reads back as the position. -/
theorem word_facts : ∀ k : Fin 32, IntOp.cmpi .slt (BitVec.ofNat 32 k.val) 0#32 = 0#1
    ∧ (BitVec.ofNat 32 k.val).toInt.toNat = k.val ∧ (BitVec.ofNat 32 k.val).toNat = k.val := by decide

/-- Entry b of table 0: the word of σ b. -/
theorem tbl0_apply (b : Fin 32) : (tbl m 0 : S32.Idx → BitVec 32) (ix1 b) = BitVec.ofNat 32 (σ m b).val := by
  rw [tbl0_eq]; exact perm_apply m b

/-- The column of start indices read at (b, 0): the vector's entry b. -/
theorem column_apply (v : IVec S32 32) (b : Fin 32) :
    broadcastInDim S32x1 ![0] bcast_S32_S32x1_0 v (ix2 b (⟨0, Nat.one_pos⟩ : Fin 1)) = v (ix1 b) :=
  broadcastInDim_apply _ bcast_S32_S32x1_0 v (ix2 b (⟨0, Nat.one_pos⟩ : Fin 1)) (ix1 b) (fun a => match a with
    | ⟨0, _⟩ => by show b.val = if (32 : Nat) = 1 then 0 else b.val; rw [if_neg (by decide)])

/-- The gather of the subject words at a column whose entry b is the word of position k reads the subject of k. -/
theorem gather_sid_apply (s : IVec S32 32) (idx : IVec S32x1 32) (b k : Fin 32)
    (hk : idx (ix2 b (⟨0, Nat.one_pos⟩ : Fin 1)) = BitVec.ofNat 32 k.val) :
    Host.gather gather_S32_S32x1_S32_n_0_n_n_0_1_1 s idx (ix1 b) = s (ix1 k) := by
  refine (Cert.GatherPick.gather_pick_apply (by decide) Facts₀.gather_S32_S32x1_S32_n_0_n_n_0_1_1_wf s idx (ix1 b)).trans ?_
  congr 1
  funext a
  match a with
  | ⟨0, _⟩ =>
    refine Fin.ext ?_
    show min (idx (ix2 b (⟨0, Nat.one_pos⟩ : Fin 1))).toInt.toNat (32 - 1) = k.val
    rw [hk, (word_facts k).2.1]
    have := k.isLt
    omega

/-- Entry b of table 1: the subject of batch entry σ b. -/
theorem tbl1_apply (b : Fin 32) : (tbl m 1 : S32.Idx → BitVec 32) (ix1 b) = sid m (ix1 (σ m b)) := by
  rw [tbl1_eq]
  refine gather_sid_apply (sid m) _ b (σ m b) ?_
  refine (column_apply _ b).trans ?_
  show Scalar.select (IntOp.cmpi .slt (perm (sid m) (ix1 b)) 0#32) _ (perm (sid m) (ix1 b)) = _
  rw [perm_apply, (word_facts (σ m b)).1, select_zero]

end Cert.KernelIdeal.Tables

end
-- ==== Proof.KernelIdealOk.lean ====
/-
  The pipeline's side condition on the tables, from the precondition.  Each index map reads its table at the grid
  coordinate b and returns the block (word, 0, 0).  The word of table 0 is a batch entry below 32 and the word of
  table 1 a subject, below 8 under the precondition; so every block lies inside its array.
-/
import proofs.«140168_j77360950935845_2_alg».proof.Defs
import proofs.«140168_j77360950935845_2_alg».proof.Proof.KernelIdealTables
import proofs.«140168_j77360950935845_2_alg».proof.Proof.PreDecode
import proofs.«140168_j77360950935845_2_alg».proof.Proof.Gen.Pre_finite_inputs

set_option maxRecDepth 16384

noncomputable section

namespace Cert.KernelIdeal.OkOfPre

open Cert.KernelIdeal Cert.KernelIdeal.Gen Cert.KernelIdeal.Tables
open Idealize.ShloMosaic Idealize.ShloMosaic.TcCoe Idealize.SL.Sem
open Idealize.ShloMosaic.ValueIdx

variable {F : FTy → Type} [FloatOps F]

/-- The grid coordinate as a batch position. -/
def pos (i : grid0.Coords) : Fin 32 := ⟨(i 0).val, (i 0).isLt⟩

/-- The word an index map loads from table 0 at grid coordinate b is the table's entry b. -/
theorem at0 (pf : pre0.Contents (Elt F)) (i : grid0.Coords) :
    pf.at 0 (Rect.unit (s := S32) ![(Scalar.indexCast (BitVec.ofNat 32 (i 0).val)).toNat] S1.size (Facts₀.k0_off1_inb i)) Facts₀.numel1_S1
      = (pf 0 : S32.Idx → BitVec 32) (ix1 (pos i)) := by
  show (pf 0 : S32.Idx → BitVec 32) _ = _
  congr 1
  funext a
  match a with
  | ⟨0, _⟩ =>
    refine Fin.ext ?_
    show (Scalar.indexCast (BitVec.ofNat 32 (i 0).val)).toNat + 1 * 0 = (i 0).val
    have hlt : (i 0).val < 32 := (i 0).isLt
    have : (Scalar.indexCast (BitVec.ofNat 32 (i 0).val)).toNat = (i 0).val := by
      show (i 0).val % 2 ^ 32 = (i 0).val
      omega
    omega

/-- The same for table 1. -/
theorem at1 (pf : pre0.Contents (Elt F)) (i : grid0.Coords) :
    pf.at 1 (Rect.unit (s := S32) ![(Scalar.indexCast (BitVec.ofNat 32 (i 0).val)).toNat] S1.size (Facts₀.k0_off1_inb i)) Facts₀.numel1_S1
      = (pf 1 : S32.Idx → BitVec 32) (ix1 (pos i)) := by
  show (pf 1 : S32.Idx → BitVec 32) _ = _
  congr 1
  funext a
  match a with
  | ⟨0, _⟩ =>
    refine Fin.ext ?_
    show (Scalar.indexCast (BitVec.ofNat 32 (i 0).val)).toNat + 1 * 0 = (i 0).val
    have hlt : (i 0).val < 32 := (i 0).isLt
    have : (Scalar.indexCast (BitVec.ofNat 32 (i 0).val)).toNat = (i 0).val := by
      show (i 0).val % 2 ^ 32 = (i 0).val
      omega
    omega

/-- The four index maps in closed form: the block (table word at b, 0, 0). -/
theorem transform0_eq (pf : pre0.Contents (Elt F)) (i : grid0.Coords) :
    cc0_transform_0 Facts₀.k0_off1_inb Facts₀.numel1_S1 pf i = ![((pf 0 : S32.Idx → BitVec 32) (ix1 (pos i))).toNat, 0, 0] := by
  unfold cc0_transform_0; dsimp only; rw [at0]; rfl
theorem transform1_eq (pf : pre0.Contents (Elt F)) (i : grid0.Coords) :
    cc0_transform_1 Facts₀.k0_off1_inb Facts₀.numel1_S1 pf i = ![((pf 1 : S32.Idx → BitVec 32) (ix1 (pos i))).toNat, 0, 0] := by
  unfold cc0_transform_1; dsimp only; rw [at1]; rfl
theorem transform2_eq (pf : pre0.Contents (Elt F)) (i : grid0.Coords) :
    cc0_transform_2 Facts₀.k0_off1_inb Facts₀.numel1_S1 pf i = ![((pf 1 : S32.Idx → BitVec 32) (ix1 (pos i))).toNat, 0, 0] := by
  unfold cc0_transform_2; dsimp only; rw [at1]; rfl
theorem transform3_eq (pf : pre0.Contents (Elt F)) (i : grid0.Coords) :
    cc0_transform_3 Facts₀.k0_off1_inb Facts₀.numel1_S1 pf i = ![((pf 0 : S32.Idx → BitVec 32) (ix1 (pos i))).toNat, 0, 0] := by
  unfold cc0_transform_3; dsimp only; rw [at0]; rfl

variable (m : (ℓ : Loc nD τ sig) → Buf (Elt F) ℓ)

/-- Table 0's entries are batch entries. -/
theorem tbl0_lt (b : Fin 32) : ((tbl m 0 : S32.Idx → BitVec 32) (ix1 b)).toNat < 32 := by
  rw [tbl0_apply, (word_facts _).2.2]; exact (σ m b).isLt

/-- Table 1's entries are subjects: table rows, when the subjects are in range. -/
theorem tbl1_lt (h : Cert.Spec.InRange (sid m)) (b : Fin 32) : ((tbl m 1 : S32.Idx → BitVec 32) (ix1 b)).toNat < 8 := by
  rw [tbl1_apply]; exact h _

/-- Every block the index maps name lies inside its array. -/
theorem ok_of_inRange (h : Cert.Spec.InRange (sid m)) : Ok m := by
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · rw [transform0_eq]
    have := tbl0_lt m (pos i)
    match a with
    | ⟨0, _⟩ => show (((tbl m 0 : S32.Idx → BitVec 32) (ix1 (pos i))).toNat + 1) * 1 ≤ 32; omega
    | ⟨1, _⟩ => show (0 + 1) * 512 ≤ 512; omega
    | ⟨2, _⟩ => show (0 + 1) * 1024 ≤ 1024; omega
  · rw [transform1_eq]
    have := tbl1_lt m h (pos i)
    match a with
    | ⟨0, _⟩ => show (((tbl m 1 : S32.Idx → BitVec 32) (ix1 (pos i))).toNat + 1) * 1 ≤ 8; omega
    | ⟨1, _⟩ => show (0 + 1) * 1024 ≤ 1024; omega
    | ⟨2, _⟩ => show (0 + 1) * 1024 ≤ 1024; omega
  · rw [transform2_eq]
    have := tbl1_lt m h (pos i)
    match a with
    | ⟨0, _⟩ => show (((tbl m 1 : S32.Idx → BitVec 32) (ix1 (pos i))).toNat + 1) * 1 ≤ 8; omega
    | ⟨1, _⟩ => show (0 + 1) * 1 ≤ 1; omega
    | ⟨2, _⟩ => show (0 + 1) * 1024 ≤ 1024; omega
  · rw [transform3_eq]
    have := tbl0_lt m (pos i)
    match a with
    | ⟨0, _⟩ => show (((tbl m 0 : S32.Idx → BitVec 32) (ix1 (pos i))).toNat + 1) * 1 ≤ 32; omega
    | ⟨1, _⟩ => show (0 + 1) * 512 ≤ 512; omega
    | ⟨2, _⟩ => show (0 + 1) * 1024 ≤ 1024; omega

/-- THE SIDE CONDITION FROM THE PRECONDITION. -/
theorem ok_of_pre [Cert.Pre_finite_inputs.Facts] (m : (ℓ : Loc nD τ sig) → Buf (Elt Ideal) ℓ) (h : Cert.Pre_KernelIdeal m) : Ok m :=
  ok_of_inRange m (Cert.PreDecode.inRange_of_pre _ _ _ _ (h 0))

end Cert.KernelIdeal.OkOfPre

end
-- ==== Proof.KernelIdealIndex.lean ====
/-
  Where each window's block sits at a grid point, for any admissible contents of the two tables.  At point t the
  index maps read the tables at position t: the activations' and the result's block is (table 0's word, 0, 0), the
  weights' and the bias's block is (table 1's word, 0, 0).  An element (0, r, o) of a block therefore sits in its
  array at (the word, r, o): the blocks are whole slabs along the leading axis.
-/
import proofs.«140168_j77360950935845_2_alg».proof.Proof.KernelIdealOk

set_option maxRecDepth 16384

noncomputable section

namespace Cert.KernelIdeal.Index

open Cert.KernelIdeal Cert.KernelIdeal.Gen Cert.KernelIdeal.OkOfPre
open Idealize.ShloMosaic Idealize.ShloMosaic.TcCoe Idealize.SL.Sem
open Idealize.ShloMosaic.ValueIdx

variable {F : FTy → Type} [FloatOps F]
variable (a : (pcfg0 (F := F)).Adm)

/-- The grid has 32 points, at any contents. -/
theorem N_eq : (cfg0 a).N = 32 := N_0

/-- The table position the index maps read at point t: t itself. -/
def pt (t : Fin (cfg0 a).N) : Fin 32 := pos ((cfg0 a).grid.coords t)

theorem pt_val (t : Fin (cfg0 a).N) : (pt a t).val = t.val := by
  show t.val / 1 % 32 = t.val
  have := t.isLt
  have hN : (cfg0 a).N = 32 := N_eq a
  omega

/-- Table 0's word at position b, as a number: a batch entry. -/
def e0 (b : Fin 32) : Nat := ((a.1 0 : S32.Idx → BitVec 32) (ix1 b)).toNat
/-- Table 1's word at position b, as a number: a table row. -/
def e1 (b : Fin 32) : Nat := ((a.1 1 : S32.Idx → BitVec 32) (ix1 b)).toNat

/-- The two words, at contents named separately (the tables as the launch memory holds them, in their use). -/
theorem e0_def (pf : pre0.Contents (Elt F)) (h : a.1 = pf) (b : Fin 32) :
    e0 a b = ((pf 0 : S32.Idx → BitVec 32) (ix1 b)).toNat := by subst h; rfl
theorem e1_def (pf : pre0.Contents (Elt F)) (h : a.1 = pf) (b : Fin 32) :
    e1 a b = ((pf 1 : S32.Idx → BitVec 32) (ix1 b)).toNat := by subst h; rfl

/-- The four block indices at point t. -/
theorem index0 (t : Fin (cfg0 a).N) (x : Fin 3) : ((cfg0 a).win 0).index t x = (![e0 a (pt a t), 0, 0] : Fin 3 → Nat) x :=
  (show ((cfg0 a).win 0).index t x = cc0_transform_0 Facts₀.k0_off1_inb Facts₀.numel1_S1 a.1 ((cfg0 a).grid.coords t) x from rfl).trans
    (congrFun (transform0_eq a.1 ((cfg0 a).grid.coords t)) x)
theorem index1 (t : Fin (cfg0 a).N) (x : Fin 3) : ((cfg0 a).win 1).index t x = (![e1 a (pt a t), 0, 0] : Fin 3 → Nat) x :=
  (show ((cfg0 a).win 1).index t x = cc0_transform_1 Facts₀.k0_off1_inb Facts₀.numel1_S1 a.1 ((cfg0 a).grid.coords t) x from rfl).trans
    (congrFun (transform1_eq a.1 ((cfg0 a).grid.coords t)) x)
theorem index2 (t : Fin (cfg0 a).N) (x : Fin 3) : ((cfg0 a).win 2).index t x = (![e1 a (pt a t), 0, 0] : Fin 3 → Nat) x :=
  (show ((cfg0 a).win 2).index t x = cc0_transform_2 Facts₀.k0_off1_inb Facts₀.numel1_S1 a.1 ((cfg0 a).grid.coords t) x from rfl).trans
    (congrFun (transform2_eq a.1 ((cfg0 a).grid.coords t)) x)
theorem index3 (t : Fin (cfg0 a).N) (x : Fin 3) : ((cfg0 a).win 3).index t x = (![e0 a (pt a t), 0, 0] : Fin 3 → Nat) x :=
  (show ((cfg0 a).win 3).index t x = cc0_transform_3 Facts₀.k0_off1_inb Facts₀.numel1_S1 a.1 ((cfg0 a).grid.coords t) x from rfl).trans
    (congrFun (transform3_eq a.1 ((cfg0 a).grid.coords t)) x)

/-- A block index of each window, from an index of the block's literal shape. -/
def blk0 (t : Fin (cfg0 a).N) (y : S1x512x1024.Idx) : (((cfg0 a).win 0).xblock ((cfg0 a).grid.coords t)).Idx := y
def blk1 (t : Fin (cfg0 a).N) (y : S1x1024x1024.Idx) : (((cfg0 a).win 1).xblock ((cfg0 a).grid.coords t)).Idx := y
def blk2 (t : Fin (cfg0 a).N) (y : S1x1x1024.Idx) : (((cfg0 a).win 2).xblock ((cfg0 a).grid.coords t)).Idx := y
def blk3 (t : Fin (cfg0 a).N) (y : S1x512x1024.Idx) : (((cfg0 a).win 3).xblock ((cfg0 a).grid.coords t)).Idx := y

/-- Element (0, r, h) of the activations' block at point t sits at (table 0's word, r, h) of the activations. -/
theorem emb0 (t : Fin (cfg0 a).N) (r : Fin 512) (h : Fin 1024) (hb : e0 a (pt a t) < 32) :
    (((cfg0 a).win 0).blk t).view.emb (blk0 a t (ix3 (0 : Fin 1) r h))
      = (ix3 (⟨e0 a (pt a t), hb⟩ : Fin 32) r h : S32x512x1024.Idx) := by
  funext x
  apply Fin.ext
  have hx := ((cfg0 a).win 0).rect_emb_val t (blk0 a t (ix3 (0 : Fin 1) r h))
  match x with
  | ⟨0, _⟩ => exact (hx (0 : Fin 3)).trans (by rw [index0]; show e0 a (pt a t) * 1 + 0 = e0 a (pt a t); omega)
  | ⟨1, _⟩ => exact (hx (1 : Fin 3)).trans (by rw [index0]; show 0 * 512 + r.val = r.val; omega)
  | ⟨2, _⟩ => exact (hx (2 : Fin 3)).trans (by rw [index0]; show 0 * 1024 + h.val = h.val; omega)

/-- Element (0, o, h) of the weights' block at point t sits at (table 1's word, o, h) of the weights. -/
theorem emb1 (t : Fin (cfg0 a).N) (o : Fin 1024) (h : Fin 1024) (hb : e1 a (pt a t) < 8) :
    (((cfg0 a).win 1).blk t).view.emb (blk1 a t (ix3 (0 : Fin 1) o h))
      = (ix3 (⟨e1 a (pt a t), hb⟩ : Fin 8) o h : S8x1024x1024.Idx) := by
  funext x
  apply Fin.ext
  have hx := ((cfg0 a).win 1).rect_emb_val t (blk1 a t (ix3 (0 : Fin 1) o h))
  match x with
  | ⟨0, _⟩ => exact (hx (0 : Fin 3)).trans (by rw [index1]; show e1 a (pt a t) * 1 + 0 = e1 a (pt a t); omega)
  | ⟨1, _⟩ => exact (hx (1 : Fin 3)).trans (by rw [index1]; show 0 * 1024 + o.val = o.val; omega)
  | ⟨2, _⟩ => exact (hx (2 : Fin 3)).trans (by rw [index1]; show 0 * 1024 + h.val = h.val; omega)

/-- Element (0, 0, o) of the bias's block at point t sits at (table 1's word, 0, o) of the re-laid bias. -/
theorem emb2 (t : Fin (cfg0 a).N) (o : Fin 1024) (hb : e1 a (pt a t) < 8) :
    (((cfg0 a).win 2).blk t).view.emb (blk2 a t (ix3 (0 : Fin 1) (0 : Fin 1) o))
      = (ix3 (⟨e1 a (pt a t), hb⟩ : Fin 8) (0 : Fin 1) o : S8x1x1024.Idx) := by
  funext x
  apply Fin.ext
  have hx := ((cfg0 a).win 2).rect_emb_val t (blk2 a t (ix3 (0 : Fin 1) (0 : Fin 1) o))
  match x with
  | ⟨0, _⟩ => exact (hx (0 : Fin 3)).trans (by rw [index2]; show e1 a (pt a t) * 1 + 0 = e1 a (pt a t); omega)
  | ⟨1, _⟩ => exact (hx (1 : Fin 3)).trans (by rw [index2]; show 0 * 1 + 0 = 0; omega)
  | ⟨2, _⟩ => exact (hx (2 : Fin 3)).trans (by rw [index2]; show 0 * 1024 + o.val = o.val; omega)

/-- Element (0, r, o) of the result's block at point t sits at (table 0's word, r, o) of the result. -/
theorem emb3 (t : Fin (cfg0 a).N) (r : Fin 512) (o : Fin 1024) (hb : e0 a (pt a t) < 32) :
    (((cfg0 a).win 3).blk t).view.emb (blk3 a t (ix3 (0 : Fin 1) r o))
      = (ix3 (⟨e0 a (pt a t), hb⟩ : Fin 32) r o : S32x512x1024.Idx) := by
  funext x
  apply Fin.ext
  have hx := ((cfg0 a).win 3).rect_emb_val t (blk3 a t (ix3 (0 : Fin 1) r o))
  match x with
  | ⟨0, _⟩ => exact (hx (0 : Fin 3)).trans (by rw [index3]; show e0 a (pt a t) * 1 + 0 = e0 a (pt a t); omega)
  | ⟨1, _⟩ => exact (hx (1 : Fin 3)).trans (by rw [index3]; show 0 * 512 + r.val = r.val; omega)
  | ⟨2, _⟩ => exact (hx (2 : Fin 3)).trans (by rw [index3]; show 0 * 1024 + o.val = o.val; omega)

/-- The three input blocks at point t, read off arrays A: slab `table word` of the array. -/
theorem read0 (t : Fin (cfg0 a).N) (A : S32x512x1024.Idx → Elt F .f32) (r : Fin 512) (h : Fin 1024) (hb : e0 a (pt a t) < 32) :
    (((cfg0 a).win 0).blk t).view.read (Elt F) A (blk0 a t (ix3 (0 : Fin 1) r h))
      = A (ix3 (⟨e0 a (pt a t), hb⟩ : Fin 32) r h) := by
  show A ((((cfg0 a).win 0).blk t).view.emb (blk0 a t (ix3 (0 : Fin 1) r h))) = _
  rw [emb0 a t r h hb]
theorem read1 (t : Fin (cfg0 a).N) (A : S8x1024x1024.Idx → Elt F .f32) (o : Fin 1024) (h : Fin 1024) (hb : e1 a (pt a t) < 8) :
    (((cfg0 a).win 1).blk t).view.read (Elt F) A (blk1 a t (ix3 (0 : Fin 1) o h))
      = A (ix3 (⟨e1 a (pt a t), hb⟩ : Fin 8) o h) := by
  show A ((((cfg0 a).win 1).blk t).view.emb (blk1 a t (ix3 (0 : Fin 1) o h))) = _
  rw [emb1 a t o h hb]
theorem read2 (t : Fin (cfg0 a).N) (A : S8x1x1024.Idx → Elt F .f32) (o : Fin 1024) (hb : e1 a (pt a t) < 8) :
    (((cfg0 a).win 2).blk t).view.read (Elt F) A (blk2 a t (ix3 (0 : Fin 1) (0 : Fin 1) o))
      = A (ix3 (⟨e1 a (pt a t), hb⟩ : Fin 8) (0 : Fin 1) o) := by
  show A ((((cfg0 a).win 2).blk t).view.emb (blk2 a t (ix3 (0 : Fin 1) (0 : Fin 1) o))) = _
  rw [emb2 a t o hb]
/-- The result's block at point t, read off an array A. -/
theorem read3 (t : Fin (cfg0 a).N) (A : S32x512x1024.Idx → Elt F .f32) (r : Fin 512) (o : Fin 1024) (hb : e0 a (pt a t) < 32) :
    (((cfg0 a).win 3).blk t).view.read (Elt F) A (blk3 a t (ix3 (0 : Fin 1) r o))
      = A (ix3 (⟨e0 a (pt a t), hb⟩ : Fin 32) r o) := by
  show A ((((cfg0 a).win 3).blk t).view.emb (blk3 a t (ix3 (0 : Fin 1) r o))) = _
  rw [emb3 a t r o hb]

/-- An element of the result whose batch entry is table 0's word at point t is an element of point t's block. -/
theorem cover3 (t : Fin (cfg0 a).N) (hb : e0 a (pt a t) < 32) (i : S32x512x1024.Idx) (hi : e0 a (pt a t) = (i 0).val) :
    (((cfg0 a).win 3).blk t).view.emb (blk3 a t (ix3 (0 : Fin 1) (i 1) (i 2))) = i := by
  rw [emb3 a t (i 1) (i 2) hb]
  funext x
  match x with
  | ⟨0, _⟩ => exact Fin.ext hi
  | ⟨1, _⟩ => rfl
  | ⟨2, _⟩ => rfl

/-- The result's window writes back at every point when table 0's words are pairwise distinct: the block index at
    the next point differs from this point's. -/
theorem flush3 (hinj : Function.Injective (e0 a)) (t : Fin (cfg0 a).N) : ((cfg0 a).win 3).flush t = true := by
  unfold Pipeline.Window.flush
  rw [Bool.and_eq_true]
  refine ⟨rfl, ?_⟩
  rw [Bool.or_eq_true, decide_eq_true_eq, decide_eq_true_eq]
  by_cases hl : t.val + 1 = (cfg0 a).N
  · exact Or.inl hl
  · have hlt : t.val + 1 < (cfg0 a).N := by have := t.isLt; omega
    refine Or.inr ⟨hlt, fun he => ?_⟩
    have h0 : ((cfg0 a).win 3).index ⟨t.val + 1, hlt⟩ (0 : Fin 3) = ((cfg0 a).win 3).index t (0 : Fin 3) := congrFun he (0 : Fin 3)
    rw [index3, index3] at h0
    have h1 : e0 a (pt a ⟨t.val + 1, hlt⟩) = e0 a (pt a t) := h0
    have h2 := congrArg Fin.val (hinj h1)
    rw [pt_val, pt_val] at h2
    have h3 : t.val + 1 = t.val := h2
    omega

end Cert.KernelIdeal.Index

end
-- ==== Proof.KernelPayload.lean ====
/-
  The body's arithmetic, read at one element.  The stored block is the product of the activations' block [512, 1024]
  with the weights' block [1024, 1024], contracted along their last axes into a zero accumulator, plus the bias row
  spread over the 512 rows.  Element (0, r, o) is therefore the sum over h of x[0, r, h] * w[0, o, h], plus bias[0, 0, o].
-/
import proofs.«140168_j77360950935845_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The matrix product read at an index

The product contracts axis 1 of the left operand [512, 1024] with axis 1 of the right operand [1024, 1024]: at
result index (r, o) and contraction coordinate k the left operand is read at (r, k) and the right at (o, k). -/

theorem lhs_0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem lhs_1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
theorem rhs_1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into a zero accumulator at (r, o): the sum over k of the left operand at (r, k) times the right at (o, k). -/
theorem matmul_rc (A : FVec Ideal S512x1024 .bf16) (B : FVec Ideal S1024x1024 .bf16) (r : Fin 512) (o : Fin 1024) :
    matmul dot_S512x1024_S1024x1024_S512x1024_1_1_0_0_n_n none A B (constant (F := Ideal) S512x1024 .f32 0x00000000#32) (ix2 r o)
      = ∑ k : Fin 1024, A (ix2 r k) * B (ix2 o k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r o) ((contrEquiv1 dot_S512x1024_S1024x1024_S512x1024_1_1_0_0_n_n 1024 rfl rfl).symm k) = ix2 r k := funext fun a => Fin.ext (by
    match a with
    | ⟨0, _⟩ => exact lhs_0 _ _
    | ⟨1, _⟩ => exact (lhs_1 _ _).trans hk)
  have er : dot_S512x1024_S1024x1024_S512x1024_1_1_0_0_n_n.rhsIdx (ix2 r o) ((contrEquiv1 dot_S512x1024_S1024x1024_S512x1024_1_1_0_0_n_n 1024 rfl rfl).symm k) = ix2 o k := funext fun a => Fin.ext (by
    match a with
    | ⟨0, _⟩ => exact rhs_0 _ _
    | ⟨1, _⟩ => exact (rhs_1 _ _).trans hk)
  rw [el, er]

/-! ## The payload read at an index -/

/-- Element (0, r, o) of the stored block: the product of row r of the activations with row o of the weights, summed
    along the shared axis, plus the bias at o. The two roundings to the narrow format are the identity on extended
    reals, the shape casts only drop or add the leading unit axis, and the bias row is broadcast over the rows. -/
theorem pay_apply (x0 : Vec Ideal S1x512x1024 .f32) (x1 : Vec Ideal S1x1024x1024 .f32) (x2 : Vec Ideal S1x1x1024 .f32)
    (r : Fin 512) (o : Fin 1024) :
    Cert.KernelIdeal.Gen.k0_pay1 (F := Ideal) x0 x1 x2 (ix3 (0 : Fin 1) r o)
      = (∑ h : Fin 1024, x0 (ix3 (0 : Fin 1) r h) * x1 (ix3 (0 : Fin 1) o h)) + x2 (ix3 (0 : Fin 1) (0 : Fin 1) o) := by
  unfold k0_pay1
  refine (shapeCast_ab_1ab_apply _ shapeCasts_S512x1024_S1x512x1024 (0 : Fin 1) r o).trans ?_
  rw [addf_apply, matmul_rc, broadcastTo_1b_ab_apply, shapeCast_1ab_ab_apply]
  refine congrArg (· + x2 (ix3 (0 : Fin 1) (0 : Fin 1) o)) ?_
  refine Finset.sum_congr rfl fun k _ => ?_
  rw [truncf_apply, truncf_apply, shapeCast_1ab_ab_apply, shapeCast_1ab_ab_apply]

end Cert.KernelIdeal.Payload

end
-- ==== Proof.KernelIdealBlock.lean ====
/-
  What one grid point writes back, for any admissible contents of the tables.  The body's term of the three input
  blocks, read at element (0, r, o) of the result's block, is the product of row r of the activations' slab with
  row o of the weights' slab plus the bias slab's entry o; the slabs are those the tables' words at the point name.
  So if an array Gf has, at every (table 0's word, r, o), that value, the point writes back its block of Gf.
-/
import proofs.«140168_j77360950935845_2_alg».proof.Proof.KernelIdealIndex
import proofs.«140168_j77360950935845_2_alg».proof.Proof.KernelPayload

set_option maxRecDepth 16384

noncomputable section

namespace Cert.KernelIdeal.Block

open Cert.KernelIdeal Cert.KernelIdeal.Gen Cert.KernelIdeal.Index
open Idealize.ShloMosaic Idealize.ShloMosaic.TcCoe Idealize.SL.Sem
open Idealize.ShloMosaic.ValueIdx

variable (a : (pcfg0 (F := Ideal)).Adm)

/-- The block point t writes back is block t of Gf. -/
theorem wrote_eq (t : Fin (cfg0 a).N) (A0 : S32x512x1024.Idx → Elt Ideal .f32) (A2 : S8x1024x1024.Idx → Elt Ideal .f32)
    (A8 : S8x1x1024.Idx → Elt Ideal .f32) (Gf : S32x512x1024.Idx → Elt Ideal .f32)
    (hb0 : e0 a (pt a t) < 32) (hb1 : e1 a (pt a t) < 8)
    (hG : ∀ (r : Fin 512) (o : Fin 1024), Gf (ix3 (⟨e0 a (pt a t), hb0⟩ : Fin 32) r o)
      = (∑ h : Fin 1024, A0 (ix3 (⟨e0 a (pt a t), hb0⟩ : Fin 32) r h) * A2 (ix3 (⟨e1 a (pt a t), hb1⟩ : Fin 8) o h))
        + A8 (ix3 (⟨e1 a (pt a t), hb1⟩ : Fin 8) (0 : Fin 1) o)) :
    ((cfg0 a).win 3).cut ((cfg0 a).grid.coords t)
        (k0_pay1 (F := Ideal) ((((cfg0 a).win 0).blk t).view.read (Elt Ideal) A0)
          ((((cfg0 a).win 1).blk t).view.read (Elt Ideal) A2) ((((cfg0 a).win 2).blk t).view.read (Elt Ideal) A8))
      = (((cfg0 a).win 3).blk t).view.read (Elt Ideal) Gf := by
  funext y
  obtain ⟨y', hy⟩ : ∃ y' : S1x512x1024.Idx, blk3 a t y' = y := ⟨y, rfl⟩
  subst hy
  obtain ⟨r, o, hro⟩ : ∃ (r : Fin 512) (o : Fin 1024), ix3 (0 : Fin 1) r o = y' := ⟨y' 1, y' 2, by
    funext x
    match x with
    | ⟨0, _⟩ =>
      refine Fin.ext ?_
      have h : (y' 0).val < 1 := (y' 0).isLt
      show 0 = (y' 0).val
      omega
    | ⟨1, _⟩ => rfl
    | ⟨2, _⟩ => rfl⟩
  subst hro
  rw [read3 a t Gf r o hb0, hG r o]
  show k0_pay1 (F := Ideal) ((((cfg0 a).win 0).blk t).view.read (Elt Ideal) A0)
      ((((cfg0 a).win 1).blk t).view.read (Elt Ideal) A2) ((((cfg0 a).win 2).blk t).view.read (Elt Ideal) A8)
      (((cfg0 a).win 3).xinj ((cfg0 a).grid.coords t) (blk3 a t (ix3 (0 : Fin 1) r o))) = _
  have hx : ((cfg0 a).win 3).xinj ((cfg0 a).grid.coords t) (blk3 a t (ix3 (0 : Fin 1) r o))
      = (ix3 (0 : Fin 1) r o : S1x512x1024.Idx) := funext fun x => Fin.ext rfl
  rw [hx]
  refine (Cert.KernelIdeal.Payload.pay_apply _ _ _ r o).trans ?_
  exact congrArg₂ (· + ·)
    (Finset.sum_congr rfl fun h _ => congrArg₂ (· * ·) (read0 a t A0 r h hb0) (read1 a t A2 o h hb1))
    (read2 a t A8 o hb1)

end Cert.KernelIdeal.Block

end
-- ==== Proof.KernelIdealBody.lean ====
/-
  What one grid point leaves in the result's staging buffer: the body stores ONE value over the whole block, the
  product-plus-bias term `k0_pay1` of the three blocks it loaded (activations, weights, bias), and its loads read
  the whole staging buffers.  So the buffer ends holding that term of the three input blocks.
-/
import proofs.«140168_j77360950935845_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]

/-- The zero offsets of a rank-3 block. -/
theorem hz : (![0, 0, 0] : Fin 3 → Nat) = fun _ => 0 := funext fun a => by fin_cases a <;> rfl

/-- The result block after the body: the body's term of the three loaded blocks. -/
theorem out_eq (c : Dev nD) (i : grid0.Coords) (arg3 : Memref sig .tc .vmem S1x512x1024 .f32) (harg3 : arg3.IsWhole)
    (arg4 : Memref sig .tc .vmem S1x1024x1024 .f32) (harg4 : arg4.IsWhole) (arg5 : Memref sig .tc .vmem S1x1x1024 .f32)
    (harg5 : arg5.IsWhole) (arg6 : Memref sig .tc .vmem S1x512x1024 .f32) (harg6 : arg6.IsWhole)
    (x0 : Vec F S1x512x1024 .f32) (x1 : Vec F S1x1024x1024 .f32) (x2 : Vec F S1x1x1024 .f32)
    (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  rw [View.canon_unit_zero hz]
  simp only [View.readAt_eq_ld, harg3.read_unread, harg4.read_unread, harg5.read_unread,
    View.ld_unit_zero (S := S1x512x1024) hz, View.ld_unit_zero (S := S1x1024x1024) hz, View.ld_unit_zero (S := S1x1x1024) hz]

end Cert.KernelIdeal.Body

end
-- ==== Proof.KernelIdealValue.lean ====
/-
  The kernel's result array.  At grid point t the body reads the activations of batch entry σ t, the weights and the
  bias of that entry's subject s (σ t), and writes their product-plus-bias over the block of batch entry σ t of the
  result.  So what point t writes back is block t of ONE function of the argument arrays, the specification
  `Spec.G`; σ being onto, the 32 blocks fill the result, and σ being one-to-one every point writes back.
-/
import proofs.«140168_j77360950935845_2_alg».proof.Proof.KernelIdealBlock
import proofs.«140168_j77360950935845_2_alg».proof.Proof.KernelIdealBody

set_option maxRecDepth 16384

noncomputable section

namespace Cert.KernelIdeal.Value

open Cert.KernelIdeal Cert.KernelIdeal.Gen Cert.KernelIdeal.Tables Cert.KernelIdeal.OkOfPre Cert.KernelIdeal.Index
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The specification at the argument arrays as launched. -/
def Gm (c : Dev nD) : S32x512x1024.Idx → Elt Ideal .f32 :=
  Cert.Spec.G (m ((c : Thread nD τ).loc main_arg0) : S32x512x1024.Idx → Elt Ideal .f32)
    (m ((c : Thread nD τ).loc main_arg1) : S32.Idx → BitVec 32)
    (m ((c : Thread nD τ).loc main_arg2) : S8x1024x1024.Idx → Elt Ideal .f32)
    (m ((c : Thread nD τ).loc main_arg3) : S8x1024.Idx → Elt Ideal .f32)

/-- Table 0's word at position b is the batch entry σ b. -/
theorem e0_eq (hO : Ok m) (b : Fin 32) : e0 (adm m hO) b = (σ m b).val := by
  rw [e0_def (adm m hO) (tbl m) rfl b, tbl0_apply, (word_facts _).2.2]

/-- Table 1's word at position b is the table row of batch entry σ b. -/
theorem e1_eq (hO : Ok m) (hr : Cert.Spec.InRange (sid m)) (b : Fin 32) :
    e1 (adm m hO) b = (Cert.Spec.row (sid m) (σ m b)).val := by
  rw [e1_def (adm m hO) (tbl m) rfl b, tbl1_apply, Cert.Spec.row_val hr]

theorem e0_injective (hO : Ok m) : Function.Injective (e0 (adm m hO)) := fun b b' h => by
  rw [e0_eq, e0_eq] at h
  exact (σ_bijective m).1 (Fin.ext h)

/-- The bias as the region finds it: the bias table re-laid [8, 1, 1024]. -/
theorem V_bias (c : Dev nD) : (V m c main_v8 : S8x1x1024.Idx → Elt Ideal .f32) =
    shapeCast S8x1x1024 (m ((c : Thread nD τ).loc main_arg3)) Facts₀.shapeCasts_S8x1024_S8x1x1024 := by
  dsimp only [V]
  simp only [hostOps0, hostOps0_1, List.flatten_cons, List.flatten_nil, List.append_nil, List.cons_append, List.nil_append]
  after_results
  rfl

/-- The re-laid bias at (s, 0, o) is the bias at (s, o). -/
theorem bias_apply (b : S8x1024.Idx → Elt Ideal .f32) (s : Fin 8) (o : Fin 1024) :
    shapeCast S8x1x1024 b Facts₀.shapeCasts_S8x1024_S8x1x1024 (ix3 s (0 : Fin 1) o) = b (ix2 s o) := by
  refine shapeCast_apply b Facts₀.shapeCasts_S8x1024_S8x1x1024 (ix3 s (0 : Fin 1) o) (ix2 s o) ?_
  rw [Shape.rowMajor_val_two, Shape.rowMajor_val_three]
  show s.val * 1024 + o.val = (s.val * 1 + 0) * 1024 + o.val
  omega

/-- WHAT POINT t WRITES BACK is block t of the specification. -/
theorem flushed_eq (hO : Ok m) (hr : Cert.Spec.InRange (sid m)) (c : Dev nD) (t : Fin (cfgM m hO).N) :
    (dats m hO 0 c).flushed 3 t = (((cfgM m hO).win 3).blk t).view.read (Elt Ideal) (Gm m c) := by
  show ((cfgM m hO).win 3).cut ((cfgM m hO).grid.coords t) ((dats m hO 0 c).after 3 t) = _
  rw [after0_3]
  unfold outsAt0
  have hout := Cert.KernelIdeal.Body.out_eq (F := Ideal) c (grid0.coords t) (ms0_0 m hO t) (hs0_0 m hO t) (ms0_1 m hO t)
    (hs0_1 m hO t) (ms0_2 m hO t) (hs0_2 m hO t) (ms0_3 m hO t) (hs0_3 m hO t) (iblk m hO c 0 t) (iblk m hO c 1 t)
    (iblk m hO c 2 t) (tbl m 0) (tbl m 1)
  rw [hout]
  unfold iblk
  have hb0 : e0 (adm m hO) (pt (adm m hO) t) < 32 := by rw [e0_eq]; exact (σ m _).isLt
  have hb1 : e1 (adm m hO) (pt (adm m hO) t) < 8 := by rw [e1_eq m hO hr]; exact (Cert.Spec.row _ _).isLt
  refine Cert.KernelIdeal.Block.wrote_eq (adm m hO) t (V m c main_arg0) (V m c main_arg2) (V m c main_v8) (Gm m c) hb0 hb1
    (fun r o => ?_)
  obtain rfl : c = 0 := Subsingleton.elim _ _
  have h0 : (⟨e0 (adm m hO) (pt (adm m hO) t), hb0⟩ : Fin 32) = σ m (pt (adm m hO) t) := Fin.ext (e0_eq m hO _)
  have h1 : (⟨e1 (adm m hO) (pt (adm m hO) t), hb1⟩ : Fin 8) = Cert.Spec.row (sid m) (σ m (pt (adm m hO) t)) :=
    Fin.ext (e1_eq m hO hr _)
  rw [h0, h1, V_main_arg0, V_main_arg2, V_bias, bias_apply]
  rfl

/-- THE RESULT ARRAY after the run is the specification of the argument arrays. -/
theorem final (hO : Ok m) (hr : Cert.Spec.InRange (sid m)) (c : Dev nD) :
    (dats m hO 0 c).arrAt 3 (cfgM m hO).N = Gm m c :=
  (dats m hO 0 c).arrAt_eq_of_cover 3 (Gm m c) (fun t _ => flushed_eq m hO hr c t) (fun i => by
    obtain ⟨i', hi⟩ : ∃ i' : S32x512x1024.Idx, i' = i := ⟨i, rfl⟩
    subst hi
    obtain ⟨b, hb⟩ := (σ_bijective m).2 (i' 0)
    have hN : (cfgM m hO).N = 32 := N_eq (adm m hO)
    have hlt : b.val < (cfgM m hO).N := by rw [hN]; exact b.isLt
    have hp : pt (adm m hO) ⟨b.val, hlt⟩ = b := Fin.ext (pt_val (adm m hO) _)
    have he : e0 (adm m hO) (pt (adm m hO) ⟨b.val, hlt⟩) = (i' 0).val := by rw [hp, e0_eq, hb]
    refine ⟨⟨b.val, hlt⟩, flush3 (adm m hO) (e0_injective m hO) _, ?_⟩
    have hmem := View.emb_mem_set (((cfgM m hO).win 3).blk ⟨b.val, hlt⟩).view
      (blk3 (adm m hO) ⟨b.val, hlt⟩ (ix3 (0 : Fin 1) (i' 1) (i' 2)))
    rw [cover3 (adm m hO) ⟨b.val, hlt⟩ (by rw [he]; exact (i' 0).isLt) i' he] at hmem
    exact hmem)

/-- THE RUN, READ: the result array at the specification of the argument arrays, the arguments unchanged. -/
theorem run (hO : Ok m) (hr : Cert.Spec.InRange (sid m)) :
    θ_run defs (onTc (τ := τ) (main (F := Ideal))) ⟨m, fun _ => 0, ρ⟩ (fun r => ∀ c : Dev nD,
      r.2.mem ((c.tc : Thread nD τ).loc main_v9) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final m hO hr c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c))),
      ((h c).2 main_arg3 (by decide : main_arg3 ∈ Pipeline.restRefs sig spec0)).trans (V_main_arg3 m c)⟩)
    (run_main m ρ hO)

end Cert.KernelIdeal.Value

end
-- ==== Proof.RefIsSpec.lean ====
/-
  The reference, read element by element.  It gathers one whole slice of the weight table and one row of the bias
  table per batch entry, at the entry's subject word (a word below zero moved up by 8 first, the start index then
  clamped into [0, 7]); multiplies the activations with the gathered weights batch entry by batch entry, contracting
  the shared last axis; and adds the gathered bias along the rows.  With every subject word below 8 the gathered row is
  the specification's, and element (b, r, o) is the specification's sum, term for term.
-/
import proofs.«140168_j77360950935845_2_alg».proof.Proof.Gen.ReferenceIdeal.Read
import proofs.«140168_j77360950935845_2_alg».proof.Proof.Spec
import Idealize.ShloMosaic.Lib.ValueIdx
import Idealize.ShloMosaic.Lib.Pipeline.Value
import Idealize.ShloMosaic.PureOps.Ideal.Laws

noncomputable section

namespace Cert.RefIsSpec

open Cert.ReferenceIdeal Cert.ReferenceIdeal.Gen Cert.ReferenceIdeal.Read Idealize.ShloMosaic Idealize.ShloMosaic.ValueIdx Idealize.ShloMosaic.StableHlo

/-! ## Words: a subject word below 8 -/

/-- A word below 8 is not negative: the signed comparison with zero answers 0. -/
theorem slt_zero_of_lt (w : BitVec 32) (h : w.toNat < 8) : IntOp.cmpi .slt w 0#32 = 0#1 := by
  have hs : w.slt 0#32 = false := by
    rw [BitVec.slt, BitVec.toInt_eq_toNat_of_lt (by omega)]
    simp
  show BitVec.ofBool (w.slt 0#32) = 0#1
  rw [hs]; rfl

/-- A word below 8 read as a signed integer is the natural number it encodes. -/
theorem toInt_toNat_of_lt (w : BitVec 32) (h : w.toNat < 8) : w.toInt.toNat = w.toNat := by
  rw [BitVec.toInt_eq_toNat_of_lt (by omega)]
  exact Int.toNat_natCast _

/-! ## The two gathers read at an index

Both gathers take one whole slice of the table per batch entry: on the table's axis 0 (collapsed, the only axis in
the start index map) the operand coordinate is the start index of batch entry b, read signed and clamped into
[0, 7]; on the other axes the start and the batching coordinate are 0 and the offset coordinate is the result's. -/

section Gathers
variable {α : Type}

/-- The weight gather at (b, o, h): the table at the clamped start index's row, at (o, h). -/
theorem gather_weight_apply (x : S8x1024x1024.Idx → α) (idx : IVec S32x1 32) (b : Fin 32) (o h : Fin 1024) :
    Host.gather gather_S8x1024x1024_S32x1_S32x1024x1024_12_0_n_n_0_1_110241024 x idx (ix3 b o h)
      = x (ix3 (⟨min (idx (ix2 b 0)).toInt.toNat 7, by omega⟩ : Fin 8) o h) := by
  unfold Host.gather
  refine congrArg x ?_
  funext a
  refine Fin.ext ?_
  match a with
  | ⟨0, _⟩ =>
    show gather_S8x1024x1024_S32x1_S32x1024x1024_12_0_n_n_0_1_110241024.start (ix3 b o h) idx 0 + gather_S8x1024x1024_S32x1_S32x1024x1024_12_0_n_n_0_1_110241024.batchCoord (ix3 b o h) 0 + gather_S8x1024x1024_S32x1_S32x1024x1024_12_0_n_n_0_1_110241024.offCoord (ix3 b o h) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 3) ∈ gather_S8x1024x1024_S32x1_S32x1024x1024_12_0_n_n_0_1_110241024.startIndexMap from List.mem_singleton.mpr rfl)]
    have hsi : gather_S8x1024x1024_S32x1_S32x1024x1024_12_0_n_n_0_1_110241024.siIdx (ix3 b o h)
        ⟨List.idxOf (0 : Fin 3) gather_S8x1024x1024_S32x1_S32x1024x1024_12_0_n_n_0_1_110241024.startIndexMap, List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show gather_S8x1024x1024_S32x1_S32x1024x1024_12_0_n_n_0_1_110241024.start (ix3 b o h) idx 1 + gather_S8x1024x1024_S32x1_S32x1024x1024_12_0_n_n_0_1_110241024.batchCoord (ix3 b o h) 1 + gather_S8x1024x1024_S32x1_S32x1024x1024_12_0_n_n_0_1_110241024.offCoord (ix3 b o h) 1 = o.val
    rw [GatherDims.batchCoord_eq_zero _ _ _ List.not_mem_nil]
    unfold GatherDims.start
    rw [dif_neg (show (1 : Fin 3) ∉ gather_S8x1024x1024_S32x1_S32x1024x1024_12_0_n_n_0_1_110241024.startIndexMap by decide)]
    simp only [Nat.add_zero, Nat.zero_add]
    unfold GatherDims.offCoord
    rw [dif_pos (show (1 : Fin 3) ∈ gather_S8x1024x1024_S32x1_S32x1024x1024_12_0_n_n_0_1_110241024.sKept by decide)]
    rfl
  | ⟨2, _⟩ =>
    show gather_S8x1024x1024_S32x1_S32x1024x1024_12_0_n_n_0_1_110241024.start (ix3 b o h) idx 2 + gather_S8x1024x1024_S32x1_S32x1024x1024_12_0_n_n_0_1_110241024.batchCoord (ix3 b o h) 2 + gather_S8x1024x1024_S32x1_S32x1024x1024_12_0_n_n_0_1_110241024.offCoord (ix3 b o h) 2 = h.val
    rw [GatherDims.batchCoord_eq_zero _ _ _ List.not_mem_nil]
    unfold GatherDims.start
    rw [dif_neg (show (2 : Fin 3) ∉ gather_S8x1024x1024_S32x1_S32x1024x1024_12_0_n_n_0_1_110241024.startIndexMap by decide)]
    simp only [Nat.add_zero, Nat.zero_add]
    unfold GatherDims.offCoord
    rw [dif_pos (show (2 : Fin 3) ∈ gather_S8x1024x1024_S32x1_S32x1024x1024_12_0_n_n_0_1_110241024.sKept by decide)]
    rfl

/-- The bias gather at (b, o): the table at the clamped start index's row, at o. -/
theorem gather_bias_apply (x : S8x1024.Idx → α) (idx : IVec S32x1 32) (b : Fin 32) (o : Fin 1024) :
    Host.gather gather_S8x1024_S32x1_S32x1024_1_0_n_n_0_1_11024 x idx (ix2 b o)
      = x (ix2 (⟨min (idx (ix2 b 0)).toInt.toNat 7, by omega⟩ : Fin 8) o) := by
  unfold Host.gather
  refine congrArg x ?_
  funext a
  refine Fin.ext ?_
  match a with
  | ⟨0, _⟩ =>
    show gather_S8x1024_S32x1_S32x1024_1_0_n_n_0_1_11024.start (ix2 b o) idx 0 + gather_S8x1024_S32x1_S32x1024_1_0_n_n_0_1_11024.batchCoord (ix2 b o) 0 + gather_S8x1024_S32x1_S32x1024_1_0_n_n_0_1_11024.offCoord (ix2 b o) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ gather_S8x1024_S32x1_S32x1024_1_0_n_n_0_1_11024.startIndexMap from List.mem_singleton.mpr rfl)]
    have hsi : gather_S8x1024_S32x1_S32x1024_1_0_n_n_0_1_11024.siIdx (ix2 b o)
        ⟨List.idxOf (0 : Fin 2) gather_S8x1024_S32x1_S32x1024_1_0_n_n_0_1_11024.startIndexMap, List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show gather_S8x1024_S32x1_S32x1024_1_0_n_n_0_1_11024.start (ix2 b o) idx 1 + gather_S8x1024_S32x1_S32x1024_1_0_n_n_0_1_11024.batchCoord (ix2 b o) 1 + gather_S8x1024_S32x1_S32x1024_1_0_n_n_0_1_11024.offCoord (ix2 b o) 1 = o.val
    rw [GatherDims.batchCoord_eq_zero _ _ _ List.not_mem_nil]
    unfold GatherDims.start
    rw [dif_neg (show (1 : Fin 2) ∉ gather_S8x1024_S32x1_S32x1024_1_0_n_n_0_1_11024.startIndexMap by decide)]
    simp only [Nat.add_zero, Nat.zero_add]
    unfold GatherDims.offCoord
    rw [dif_pos (show (1 : Fin 2) ∈ gather_S8x1024_S32x1_S32x1024_1_0_n_n_0_1_11024.sKept by decide)]
    rfl

end Gathers

/-! ## The start indices under the precondition

The start index of batch entry b is the subject word itself when it is not negative (and the word plus 8 when it
is). A word below 8 is not negative, so the start index is the word, its signed reading is the natural number the
word encodes, and the clamp into [0, 7] leaves it alone: the row read is the specification's. -/

section Start
variable {F : FTy → Type} [FloatOps F]

/-- The weight gather's start index of batch entry b is the subject word. -/
theorem start_weight (x1 : (⟨S32, .i32⟩ : BufTy).Contents (Elt F)) (b : Fin 32) (h : (x1 (ix1 b)).toNat < 8) :
    val_main_v5 (F := F) x1 (ix2 b 0) = x1 (ix1 b) := by
  have e : idx_main_v5 (ix2 b (0 : Fin 1)) = ix1 b := funext fun a => Fin.ext (by match a with | ⟨0, _⟩ => rfl)
  rw [val_main_v5_apply, e, val_main_v4_apply, val_main_v1_apply, val_main_v0_apply, val_main_c_apply,
    slt_zero_of_lt _ h, select_zero]

/-- The bias gather's start index of batch entry b is the subject word. -/
theorem start_bias (x1 : (⟨S32, .i32⟩ : BufTy).Contents (Elt F)) (b : Fin 32) (h : (x1 (ix1 b)).toNat < 8) :
    val_main_v12 (F := F) x1 (ix2 b 0) = x1 (ix1 b) := by
  have e : idx_main_v12 (ix2 b (0 : Fin 1)) = ix1 b := funext fun a => Fin.ext (by match a with | ⟨0, _⟩ => rfl)
  rw [val_main_v12_apply, e, val_main_v11_apply, val_main_v8_apply, val_main_v7_apply, val_main_c_1_apply,
    slt_zero_of_lt _ h, select_zero]

/-- A word below 8, read signed and clamped into [0, 7], names the specification's row. -/
theorem clamp_eq_row (x1 : IVec Cert.Spec.SI 32) (h : Cert.Spec.InRange x1) (b : Fin 32) (w : BitVec 32) (hw : w = x1 (ix1 b))
    (hlt : min w.toInt.toNat 7 < 8) : (⟨min w.toInt.toNat 7, hlt⟩ : Fin 8) = Cert.Spec.row x1 b := by
  subst hw
  refine Fin.ext ?_
  show min (x1 (ix1 b)).toInt.toNat 7 = (Cert.Spec.row x1 b).val
  rw [toInt_toNat_of_lt _ (h b), Cert.Spec.row_val h b]
  have := h b
  omega

/-- The gathered weights at (b, o, k) are the table's row of batch entry b at (o, k). -/
theorem weight_row (x1 : (⟨S32, .i32⟩ : BufTy).Contents (Elt F)) (x2 : (⟨S8x1024x1024, .f32⟩ : BufTy).Contents (Elt F))
    (h : Cert.Spec.InRange x1) (b : Fin 32) (o k : Fin 1024) :
    val_main_v6 (F := F) x1 x2 (ix3 b o k) = x2 (ix3 (Cert.Spec.row x1 b) o k) := by
  unfold val_main_v6
  rw [gather_weight_apply, clamp_eq_row x1 h b _ (start_weight x1 b (h b))]

/-- The gathered bias at (b, o) is the table's row of batch entry b at o. -/
theorem bias_row (x1 : (⟨S32, .i32⟩ : BufTy).Contents (Elt F)) (x3 : (⟨S8x1024, .f32⟩ : BufTy).Contents (Elt F))
    (h : Cert.Spec.InRange x1) (b : Fin 32) (o : Fin 1024) :
    val_main_v13 (F := F) x1 x3 (ix2 b o) = x3 (ix2 (Cert.Spec.row x1 b) o) := by
  unfold val_main_v13
  rw [gather_bias_apply, clamp_eq_row x1 h b _ (start_bias x1 b (h b))]

end Start

/-! ## The reference computes the specification -/

/-- Element (b, r, o) of the reference's result is the sum over h of x[b, r, h] * weight[s b, o, h], plus
    bias[s b, o]: the same sum, in the same order, as the specification's. -/
theorem ref_eq_spec (x0 : (⟨S32x512x1024, .f32⟩ : BufTy).Contents (Elt Ideal)) (x1 : (⟨S32, .i32⟩ : BufTy).Contents (Elt Ideal))
    (x2 : (⟨S8x1024x1024, .f32⟩ : BufTy).Contents (Elt Ideal)) (x3 : (⟨S8x1024, .f32⟩ : BufTy).Contents (Elt Ideal))
    (h : Cert.Spec.InRange x1) :
    Cert.ReferenceIdeal.Read.val_main_v17 (F := Ideal) x0 x1 x2 x3 = Cert.Spec.G x0 x1 x2 x3 := by
  funext i
  obtain ⟨b, r, o, rfl⟩ : ∃ b r o, i = ix3 b r o := ⟨i 0, i 1, i 2, eq_ix3 i⟩
  have e15 : idx_main_v15 (idx_main_v16 (ix3 b r o)) = ix2 b o :=
    funext fun a => Fin.ext (by match a with | ⟨0, _⟩ => rfl | ⟨1, _⟩ => rfl)
  rw [val_main_v17_apply, val_main_v14_apply, val_main_v16_apply, val_main_v15_apply, e15, bias_row x1 x3 h b o,
    Ideal.addf_def]
  show _ = (∑ k : Fin 1024, x0 (ix3 b r k) * x2 (ix3 (Cert.Spec.row x1 b) o k)) + x3 (ix2 (Cert.Spec.row x1 b) o)
  refine congrArg (· + x3 (ix2 (Cert.Spec.row x1 b) o)) ?_
  refine Finset.sum_congr rfl fun k _ => ?_
  have el : lidx_main_v14 (ix3 b r o) k = ix3 b r k :=
    funext fun a => Fin.ext (by match a with | ⟨0, _⟩ => rfl | ⟨1, _⟩ => rfl | ⟨2, _⟩ => rfl)
  have er : ridx_main_v14 (ix3 b r o) k = ix3 b o k :=
    funext fun a => Fin.ext (by match a with | ⟨0, _⟩ => rfl | ⟨1, _⟩ => rfl | ⟨2, _⟩ => rfl)
  rw [el, er, weight_row x1 x2 h b o k]

end Cert.RefIsSpec

end
-- ==== Proof.lean ====
/-
  A grouped matrix product with a gathered bias.  For activations x : [32, 512, 1024], subject words s : [32],
  a weight table W : [8, 1024, 1024] and a bias table β : [8, 1024], both programs compute

      out[b, r, o] = (∑ h, x[b, r, h] * W[s b, o, h]) + β[s b, o].

  The reference gathers W and β at the subjects and multiplies batch entry by batch entry.  The kernel sorts the batch
  entries by subject, hands the sorting permutation σ and the sorted subjects to its index maps as two tables, and at
  grid point t multiplies batch entry σ t with the table row of its subject, writing block σ t of the result; σ is a
  bijection of the 32 entries, so the blocks fill the result, each with the reference's values.  Over the extended
  reals the two sums are the same terms in the same order (the two narrowings of the operands are the identity there),
  so no finiteness is used.  What is used of the precondition is its last conjunct, 0 ≤ s b < 8: it puts every block
  the tables name inside its array, and makes the reference's clamped gathers read row s b.
-/
import proofs.«140168_j77360950935845_2_alg».proof.Defs
import proofs.«140168_j77360950935845_2_alg».proof.Proof.Gen.Kernel
import proofs.«140168_j77360950935845_2_alg».proof.Proof.Gen.Kernel.Skeleton
import proofs.«140168_j77360950935845_2_alg».proof.Proof.Gen.Kernel.Launch
import proofs.«140168_j77360950935845_2_alg».proof.Proof.Gen.Kernel.Points
import proofs.«140168_j77360950935845_2_alg».proof.Proof.Gen.Kernel.Frame
import proofs.«140168_j77360950935845_2_alg».proof.Proof.Gen.KernelIdeal
import proofs.«140168_j77360950935845_2_alg».proof.Proof.Gen.KernelIdeal.Skeleton
import proofs.«140168_j77360950935845_2_alg».proof.Proof.Gen.KernelIdeal.Launch
import proofs.«140168_j77360950935845_2_alg».proof.Proof.Gen.KernelIdeal.Points
import proofs.«140168_j77360950935845_2_alg».proof.Proof.Gen.KernelIdeal.Frame
import proofs.«140168_j77360950935845_2_alg».proof.Proof.Gen.ReferenceIdeal
import proofs.«140168_j77360950935845_2_alg».proof.Proof.Gen.ReferenceIdeal.Run
import proofs.«140168_j77360950935845_2_alg».proof.Proof.Gen.ReferenceIdeal.Read
import proofs.«140168_j77360950935845_2_alg».proof.Proof.Gen.Pre_finite_inputs
import proofs.«140168_j77360950935845_2_alg».proof.Proof.KernelOk
import proofs.«140168_j77360950935845_2_alg».proof.Proof.KernelIdealValue
import proofs.«140168_j77360950935845_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and keeps its arguments: under the precondition the tables name blocks inside the arrays. -/
theorem frame_kernel : Cert.frame_Kernel := fun m ρ h =>
  Cert.Kernel.Gen.frame m ρ (Cert.Kernel.OkOfPre.ok_of_pre m h)

/-- So does its idealization. -/
theorem frame_ideal : Cert.frame_KernelIdeal := fun m ρ h =>
  Cert.KernelIdeal.Gen.frame m ρ (Cert.KernelIdeal.OkOfPre.ok_of_pre m h)

/-- The reference is a straight line of host operations: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification of the (agreeing) argument arrays in their result. -/
theorem algebraic : Cert.algebraic_KernelIdeal_ReferenceIdeal := by
  intro m ρ m' ρ' hpre hagree
  have hr : Cert.Spec.InRange (Cert.KernelIdeal.Tables.sid m) := Cert.PreDecode.inRange_of_pre _ _ _ _ (hpre 0)
  have hO : Cert.KernelIdeal.Gen.Ok m := Cert.KernelIdeal.OkOfPre.ok_of_pre m hpre
  refine ⟨fun c => Cert.KernelIdeal.Value.Gm m c, Cert.KernelIdeal.Value.run m ρ hO hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  obtain rfl : c = 0 := Subsingleton.elim _ _
  exact Cert.RefIsSpec.ref_eq_spec _ _ _ _ hr

theorem claim : Cert.Claim := ⟨Cert.Kernel.Gen.facts, Cert.KernelIdeal.Gen.facts, Cert.ReferenceIdeal.Gen.facts,
  Cert.Pre_finite_inputs.Gen.facts, frame_kernel, frame_ideal, frame_ref, preserves, algebraic⟩

end Cert.Proof

end
